-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100 : Shape := ⟨2, ![256, 100]⟩
abbrev S256x4096x100 : Shape := ⟨3, ![256, 4096, 100]⟩
abbrev S_ : Shape := ⟨0, ![]⟩

class Facts : Prop where
  bcast_S_S256x100 : S_.BroadcastsInDim S256x100 (![] : Fin 0 → Fin S256x100.rank)
  reducesTo_S256x100_S_d0_1 : S256x100.ReducesTo [0, 1] S_
  h_S_ : 0 < S_.numel
  bcast_S_S256x4096x100 : S_.BroadcastsInDim S256x4096x100 (![] : Fin 0 → Fin S256x4096x100.rank)
  reducesTo_S256x4096x100_S_d0_1_2 : S256x4096x100.ReducesTo [0, 1, 2] S_

variable [Facts]

def fn {F : FTy → Type} [FloatOps F] (main_arg0 : FVec F S256x100 .f32) (main_arg1 : FVec F S256x4096x100 .f32) (main_arg2 : FVec F S256x100 .f32) : IVec S_ 1 :=
  let main_v0 : FVec F S256x100 .f32 := Host.absf main_arg0
  let main_cst : FVec F S_ .f32 := constant S_ .f32 0x7F800000#32
  let main_v1 : FVec F S256x100 .f32 := broadcastInDim S256x100 ![] bcast_S_S256x100 main_cst
  let main_v2 : IVec S256x100 1 := cmpf .olt main_v0 main_v1
  let main_c : IVec S_ 1 := constantI S_ 1 1#1
  let main_v3 : IVec S_ 1 := (fun x v => Host.reduce IntOp.andi x v reducesTo_S256x100_S_d0_1 h_S_) main_v2 main_c
  let main_v4 : FVec F S256x4096x100 .f32 := Host.absf main_arg1
  let main_cst_0 : FVec F S_ .f32 := constant S_ .f32 0x7F800000#32
  let main_v5 : FVec F S256x4096x100 .f32 := broadcastInDim S256x4096x100 ![] bcast_S_S256x4096x100 main_cst_0
  let main_v6 : IVec S256x4096x100 1 := cmpf .olt main_v4 main_v5
  let main_c_1 : IVec S_ 1 := constantI S_ 1 1#1
  let main_v7 : IVec S_ 1 := (fun x v => Host.reduce IntOp.andi x v reducesTo_S256x4096x100_S_d0_1_2 h_S_) main_v6 main_c_1
  let main_v8 : IVec S_ 1 := andi main_v3 main_v7
  let main_v9 : FVec F S256x100 .f32 := Host.absf main_arg2
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  main_v13
-- ==== Kernel.lean ====
abbrev S256x100 : Shape := ⟨2, ![256, 100]⟩
abbrev S256x4096x100 : Shape := ⟨3, ![256, 4096, 100]⟩
abbrev S_ : Shape := ⟨0, ![]⟩
abbrev S256x1 : Shape := ⟨2, ![256, 1]⟩
abbrev S8x100 : Shape := ⟨2, ![8, 100]⟩
abbrev S8x2048x100 : Shape := ⟨3, ![8, 2048, 100]⟩
abbrev S8x1 : Shape := ⟨2, ![8, 1]⟩
abbrev S8x1x100 : Shape := ⟨3, ![8, 1, 100]⟩
abbrev S8x1x2048 : Shape := ⟨3, ![8, 1, 2048]⟩
abbrev S8x2048 : Shape := ⟨2, ![8, 2048]⟩
abbrev S8 : Shape := ⟨1, ![8]⟩

abbrev nBuf : Space → Nat
  | .hbm => 17
  | .vmem => 6
  | .smem => 0
  | _ => 0

abbrev bufTy : (tb : Table) → Fin (tcTables nBuf tb) → BufTy
  | .hbm, ⟨0, _⟩ => ⟨S256x100, .f32⟩
  | .hbm, ⟨1, _⟩ => ⟨S256x4096x100, .f32⟩
  | .hbm, ⟨2, _⟩ => ⟨S256x100, .f32⟩
  | .hbm, ⟨3, _⟩ => ⟨S256x100, .f32⟩
  | .hbm, ⟨4, _⟩ => ⟨S256x100, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S8x100, .f32⟩
  | .local _ .vmem, ⟨1, _⟩ => ⟨S8x100, .f32⟩
  | .local _ .vmem, ⟨2, _⟩ => ⟨S8x2048x100, .f32⟩
  | .local _ .vmem, ⟨3, _⟩ => ⟨S8x2048x100, .f32⟩
  | .local _ .vmem, ⟨4, _⟩ => ⟨S8x1, .f32⟩
  | .local _ .vmem, ⟨5, _⟩ => ⟨S8x1, .f32⟩
  | _, _ => ⟨S256x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S256x100_S_d0_1 : S256x100.ReducesTo [0, 1] S_
  h_S_ : 0 < S_.numel
  inb_S8x1_S8x1_0_0 : ∀ a, (![0, 0] : Fin 2 → Nat) a + S8x1.size a ≤ S8x1.size a
  h_S8x1 : 0 < S8x1.numel
  inb_S8x100_S8x100_0_0 : ∀ a, (![0, 0] : Fin 2 → Nat) a + S8x100.size a ≤ S8x100.size a
  h_S8x100 : 0 < S8x100.numel
  inb_S8x2048x100_S8x2048x100_0_0_0 : ∀ a, (![0, 0, 0] : Fin 3 → Nat) a + S8x2048x100.size a ≤ S8x2048x100.size a
  h_S8x2048x100 : 0 < S8x2048x100.numel
  shapeCasts_S8x100_S8x1x100 : S8x100.ShapeCasts S8x1x100
  broadcasts_S8x1x100_S8x2048x100 : S8x1x100.Broadcasts S8x2048x100
  bitsLt_bf16_f32 : FTy.bits .bf16 < FTy.bits .f32
  shapeCasts_S8x1x2048_S8x2048 : S8x1x2048.ShapeCasts S8x2048
  reduces_S8x2048_S8 : S8x2048.Reduces [1] S8
  shapeCasts_S8_S8x1 : S8.ShapeCasts S8x1
  shapeCasts_S8x1_S8x1 : S8x1.ShapeCasts S8x1
  reducesTo_S256x1_S_d0_1 : S256x1.ReducesTo [0, 1] S_
  dot_S8x1x100_S8x2048x100_S8x1x2048_2_2_1_1_0_0_wf : DotDims.WF S8x1x100 S8x2048x100 S8x1x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100.size a ≤ S256x100.size a
  hwx0_0 : ∀ i : grid0.Coords, EltTy.bits .f32 = 32 ∨ (Rect.block (s := S256x100) S8x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x100.size a ≤ S256x4096x100.size a
  hwx0_1 : ∀ i : grid0.Coords, EltTy.bits .f32 = 32 ∨ (Rect.block (s := S256x4096x100) S8x2048x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S256x1.size a
  hwx0_2 : ∀ i : grid0.Coords, EltTy.bits .f32 = 32 ∨ (Rect.block (s := S256x1) S8x1.size (cc0_transform_2 i) (hinb0_2 i)).WholeWords (EltTy.packing .f32)

variable [Facts₀]

def dot_S8x1x100_S8x2048x100_S8x1x2048_2_2_1_1_0_0 : DotDims S8x1x100 S8x2048x100 S8x1x2048 where
  lhsContracting := [2]
  rhsContracting := [2]
  lhsNonContracting := [1]
  rhsNonContracting := [1]
  lhsBatch := [0]
  rhsBatch := [0]
  wf := dot_S8x1x100_S8x2048x100_S8x1x2048_2_2_1_1_0_0_wf

abbrev win0_0 : Pipeline.Window sig grid0 :=
  Pipeline.Window.ofSpec (Memref.whole main_arg0) S8x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x100 : Shape := ⟨2, ![256, 100]⟩
abbrev S256x4096x100 : Shape := ⟨3, ![256, 4096, 100]⟩
abbrev S_ : Shape := ⟨0, ![]⟩
abbrev S256x1x100 : Shape := ⟨3, ![256, 1, 100]⟩
abbrev S256x4096 : Shape := ⟨2, ![256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S256x100, .f32⟩
  | .hbm, ⟨1, _⟩ => ⟨S256x4096x100, .f32⟩
  | .hbm, ⟨2, _⟩ => ⟨S256x100, .f32⟩
  | .hbm, ⟨3, _⟩ => ⟨S256x100, .f32⟩
  | .hbm, ⟨4, _⟩ => ⟨S256x100, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x1x100, .f32⟩
  | .hbm, ⟨10, _⟩ => ⟨S256x4096x100, .f32⟩
  | .hbm, ⟨11, _⟩ => ⟨S256x4096x100, .f32⟩
  | .hbm, ⟨12, _⟩ => ⟨S256x4096x100, .f32⟩
  | .hbm, ⟨13, _⟩ => ⟨S_, .f32⟩
  | .hbm, ⟨14, _⟩ => ⟨S256x4096, .f32⟩
  | .hbm, ⟨15, _⟩ => ⟨S_, .f32⟩
  | .hbm, ⟨16, _⟩ => ⟨S256x4096, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S_, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S256x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  reducesTo_S256x100_S_d0_1 : S256x100.ReducesTo [0, 1] S_
  h_S_ : 0 < S_.numel
  bcast_S256x100_S256x1x100_0_2 : S256x100.BroadcastsInDim S256x1x100 (![0, 2] : Fin 2 → Fin S256x1x100.rank)
  bcast_S256x1x100_S256x4096x100_0_1_2 : S256x1x100.BroadcastsInDim S256x4096x100 (![0, 1, 2] : Fin 3 → Fin S256x4096x100.rank)
  reducesTo_S256x4096x100_S256x4096_d2 : S256x4096x100.ReducesTo [2] S256x4096
  bcast_S_S256x4096 : S_.BroadcastsInDim S256x4096 (![] : Fin 0 → Fin S256x4096.rank)
  reducesTo_S256x4096_S_d0_1 : S256x4096.ReducesTo [0, 1] S_

variable [Facts₀]

class Facts : Prop extends Facts₀ where

variable [Facts]
-- ==== Proof.CaseValues.lean ====
/-
  What one visit of a row block leaves in the output's staging buffer, for any float values.

  Every store of the body covers the whole [8, 1] buffer and every load reads a whole buffer, so the buffer ends
  at the last store's value. On the first visit of a row block (the clip-block coordinate is 0) the body stores the
  zero column, reads it back, and stores the body's arithmetic over it; on the second it reads what the first left
  and stores the body's arithmetic over that.
-/
import proofs.«107131_j6786048328134_2_alg».proof.Proof.Gen.KernelIdeal.Frame
import Idealize.ShloMosaic.Lib.Pipeline.Value
import Idealize.ShloMosaic.Lib.Tactic

set_option maxRecDepth 16384

noncomputable section

namespace Cert.KernelIdeal.Margin

open Cert.KernelIdeal Cert.KernelIdeal.Gen Idealize.ShloMosaic Idealize.ShloMosaic.TcCoe Idealize.SL.Sem
open Idealize.ShloMosaic.Tactic

variable {F : FTy → Type} [FloatOps F]

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- A later visit: over the running column `xo`, the body's arithmetic of the two input blocks and `xo`. -/
theorem later_visit (c : Dev nD) (i : grid0.Coords) (a2 : Memref sig .tc .vmem S8x100 .f32) (h2 : a2.IsWhole)
    (a3 : Memref sig .tc .vmem S8x2048x100 .f32) (h3 : a3.IsWhole) (a4 : Memref sig .tc .vmem S8x1 .f32) (h4 : a4.IsWhole)
    (hc : ¬cond0_0 i) (x0 : Vec F S8x100 .f32) (x1 : Vec F S8x2048x100 .f32) (xo : Vec F S8x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero zero_offsets2]
  simp only [View.readAt_eq_ld, h2.read_unread, h3.read_unread, h4.read_unread,
    View.ld_unit_zero (S := S8x100) zero_offsets2, View.ld_unit_zero (S := S8x2048x100) zero_offsets3,
    View.ld_unit_zero (S := S8x1) zero_offsets2]

/-- The first visit: the body's arithmetic of the two input blocks over the zero column. -/
theorem first_visit (c : Dev nD) (i : grid0.Coords) (a2 : Memref sig .tc .vmem S8x100 .f32) (h2 : a2.IsWhole)
    (a3 : Memref sig .tc .vmem S8x2048x100 .f32) (h3 : a3.IsWhole) (a4 : Memref sig .tc .vmem S8x1 .f32) (h4 : a4.IsWhole)
    (hc : cond0_0 i) (x0 : Vec F S8x100 .f32) (x1 : Vec F S8x2048x100 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x1) zero_offsets2, View.readCov_unit_zero (S := S8x1) _ zero_offsets2]
  simp only [View.readAt_eq_ld, h2.read_unread, h3.read_unread,
    View.ld_unit_zero (S := S8x100) zero_offsets2, View.ld_unit_zero (S := S8x2048x100) zero_offsets3]

end Cert.KernelIdeal.Margin

end
-- ==== Proof.MarginSpec.lean ====
/-
  The margin loss, over the extended reals, in the pieces both programs share.

  For a positive row `p` and a negative row `q` of 100 features, `hingeOf p q` is
  `max (0.1 - (∑ d, (p d - q d)²) / 100) 0`: the hinge on the mean squared distance. `hinge pos neg b c` reads it
  at row `b` of the positives and at clip `c` of row `b` of the negatives.

  The kernel visits the 4096 clips of a row in two halves of 2048 and keeps a running total that starts at zero:
  `rowAcc f = (0 + ∑ over the first half) + ∑ over the second half`. Addition of extended reals is commutative and
  associative and `0` is neutral, so `rowAcc f` is the sum over all 4096 clips (`rowAcc_eq`), and the sum of the
  row totals over a [256, 1] column is the sum of `f` over the whole [256, 4096] array (`total_eq`). No finiteness
  is used: nothing here distributes a product over a sum or cancels.
-/
import Idealize.ShloMosaic.PureOps.Ideal
import Idealize.ShloMosaic.PureOps.Ideal.Laws
import Idealize.ShloMosaic.Lib.ValueIdx

noncomputable section

open scoped BigOperators

namespace MarginLoss

open Idealize.ShloMosaic Idealize.ShloMosaic.ValueIdx

/-- The hinge on the mean squared distance of two rows of 100 features: `max (0.1 - (∑ d, (p d - q d)²) / 100) 0`,
    the three float literals kept as the words both programs print. -/
def hingeOf (p q : Fin 100 → EReal) : EReal :=
  max (Ideal.ofBits .f32 0x3DCCCCCD#32
        - Ideal.div (∑ d : Fin 100, (p d - q d) * (p d - q d)) (Ideal.ofBits .f32 0x42C80000#32))
      (Ideal.ofBits .f32 0x00000000#32)

/-- The hinge term of positive row `b` against clip `c` of the negatives of row `b`. -/
def hinge (pos : (⟨2, ![256, 100]⟩ : Shape).Idx → EReal) (neg : (⟨3, ![256, 4096, 100]⟩ : Shape).Idx → EReal)
    (b : Fin 256) (c : Fin 4096) : EReal :=
  hingeOf (fun d => pos (ix2 b d)) (fun d => neg (ix3 b c d))

/-- Clip `c'` of the first half of a row's 4096 clips. -/
def lo (c' : Fin 2048) : Fin 4096 := ⟨c'.val, by have := c'.isLt; omega⟩
/-- Clip `c'` of the second half. -/
def hi (c' : Fin 2048) : Fin 4096 := ⟨2048 + c'.val, by have := c'.isLt; omega⟩

/-- A sum over the 4096 clips is the sum over the first half plus the sum over the second. -/
theorem sum_halves {M : Type*} [AddCommMonoid M] (g : Fin 4096 → M) :
    ∑ c : Fin 4096, g c = ∑ c' : Fin 2048, g (lo c') + ∑ c' : Fin 2048, g (hi c') :=
  Fin.sum_univ_add (a := 2048) (b := 2048) g

/-- The running total a row ends with: zero, plus the first half's sum, plus the second half's. -/
def rowAcc (f : Fin 4096 → EReal) : EReal :=
  (Ideal.ofBits .f32 0x00000000#32 + ∑ c' : Fin 2048, f (lo c')) + ∑ c' : Fin 2048, f (hi c')

/-- It is the sum over all the clips. -/
theorem rowAcc_eq (f : Fin 4096 → EReal) : rowAcc f = ∑ c : Fin 4096, f c := by
  unfold rowAcc
  rw [Ideal.ofBits_zero_f32, zero_add, sum_halves]

/-- The row totals of a [256, 1] column add up to the sum over the whole [256, 4096] array. -/
theorem total_eq (f : Fin 256 → Fin 4096 → EReal) :
    ∑ j : (⟨2, ![256, 1]⟩ : Shape).Idx, rowAcc (f (j 0))
      = ∑ j : (⟨2, ![256, 4096]⟩ : Shape).Idx, f (j 0) (j 1) := by
  rw [sum_idx2, sum_idx2]
  refine Finset.sum_congr rfl fun a _ => ?_
  rw [Fin.sum_univ_one]
  exact rowAcc_eq (f a)

/-- THE COLUMN the kernel's region leaves: at row `b`, the running total of that row's 4096 hinge terms. -/
def rowTotals (pos : (⟨2, ![256, 100]⟩ : Shape).Idx → EReal) (neg : (⟨3, ![256, 4096, 100]⟩ : Shape).Idx → EReal) :
    (⟨2, ![256, 1]⟩ : Shape).Idx → EReal :=
  fun j => rowAcc (hinge pos neg (j 0))

/-- Its entries add up to the sum of the hinge terms over every row and clip. -/
theorem sum_rowTotals (pos : (⟨2, ![256, 100]⟩ : Shape).Idx → EReal) (neg : (⟨3, ![256, 4096, 100]⟩ : Shape).Idx → EReal) :
    ∑ j : (⟨2, ![256, 1]⟩ : Shape).Idx, rowTotals pos neg j
      = ∑ j : (⟨2, ![256, 4096]⟩ : Shape).Idx, hinge pos neg (j 0) (j 1) :=
  total_eq (hinge pos neg)

end MarginLoss

end
-- ==== Proof.KernelPayload.lean ====
/-
  The kernel body's arithmetic read at an index, over the extended reals.

  The body takes a block `x0` of 8 positive rows, a block `x1` of 8 × 2048 negative clips and the running column `xo`
  of 8 row totals. At row `r` it leaves `xo r + ∑ c', hingeOf (x0 r ·) (x1 r c' ·)`: the difference of the positive row
  (repeated along the clip axis) and each clip, squared; the narrowing to bf16 is the identity on extended reals; the
  product with the all-ones row contracts the 100 features, so it is their sum (`1 * x = x`); divided by 100,
  subtracted from 0.1, clamped at 0, summed over the 2048 clips of the block, and added to the running column.
-/
import proofs.«107131_j6786048328134_2_alg».proof.Proof.Gen.KernelIdeal.Skeleton
import proofs.«107131_j6786048328134_2_alg».proof.Proof.MarginSpec
import Idealize.ShloMosaic.Lib.Pipeline.Value
import Idealize.ShloMosaic.Lib.ValueIdx
import Idealize.ShloMosaic.PureOps.Ideal.Laws

noncomputable section

open scoped BigOperators

namespace Cert.KernelIdeal.Margin

open Cert.KernelIdeal Cert.KernelIdeal.Gen Idealize.ShloMosaic Idealize.ShloMosaic.ValueIdx

/-- Inserting a unit axis in the middle keeps the row and the feature: [8, 100] read as [8, 1, 100]. -/
theorem rows_as_unit_clip (x : S8x100.Idx → EReal) (r : Fin 8) (u : Fin 1) (d : Fin 100) :
    shapeCast S8x1x100 x shapeCasts_S8x100_S8x1x100 (ix3 r u d) = x (ix2 r d) :=
  shapeCast_apply x shapeCasts_S8x100_S8x1x100 (ix3 r u d) (ix2 r d) (by
    rw [Shape.rowMajor_val_two, Shape.rowMajor_val_three]
    show r.val * 100 + d.val = (r.val * 1 + u.val) * 100 + d.val
    have := u.isLt; omega)

/-- Repeating the unit clip axis 2048 times reads the one clip there is. -/
theorem repeat_clip (x : S8x1x100.Idx → EReal) (r : Fin 8) (c' : Fin 2048) (d : Fin 100) :
    broadcastTo S8x2048x100 x broadcasts_S8x1x100_S8x2048x100 (ix3 r c' d) = x (ix3 r (0 : Fin 1) d) :=
  broadcastTo_apply x broadcasts_S8x1x100_S8x2048x100 (ix3 r c' d) (ix3 r (0 : Fin 1) d) (fun a => by
    match a with
    | ⟨0, _⟩ => show r.val = if (8 : Nat) = 1 then 0 else r.val; rw [if_neg (by decide)]
    | ⟨1, _⟩ => show 0 = if (1 : Nat) = 1 then 0 else c'.val; rw [if_pos rfl]
    | ⟨2, _⟩ => show d.val = if (100 : Nat) = 1 then 0 else d.val; rw [if_neg (by decide)])

/-- Dropping the unit axis in the middle: [8, 1, 2048] read as [8, 2048]. -/
theorem drop_unit_row (x : S8x1x2048.Idx → EReal) (r : Fin 8) (c' : Fin 2048) :
    shapeCast S8x2048 x shapeCasts_S8x1x2048_S8x2048 (ix2 r c') = x (ix3 r (0 : Fin 1) c') :=
  shapeCast_apply x shapeCasts_S8x1x2048_S8x2048 (ix2 r c') (ix3 r (0 : Fin 1) c') (by
    rw [Shape.rowMajor_val_two, Shape.rowMajor_val_three]
    show (r.val * 1 + 0) * 2048 + c'.val = r.val * 2048 + c'.val
    omega)

/-- A vector of 8 row totals read as a column [8, 1]. -/
theorem totals_as_column (x : S8.Idx → EReal) (r : Fin 8) (z : Fin 1) :
    shapeCast S8x1 x shapeCasts_S8_S8x1 (ix2 r z) = x (ix1 r) :=
  shapeCast_apply x shapeCasts_S8_S8x1 (ix2 r z) (ix1 r) (by
    rw [Shape.rowMajor_val_two, Shape.rowMajor_val_one]
    show r.val = r.val * 1 + z.val
    have := z.isLt; omega)

/-- The bf16 word of the all-ones row is the extended real 1. -/
theorem one_bf16 : Ideal.ofBits .bf16 0x3F80#16 = 1 := IdealRules.sign_bit.ideal_onePat .bf16

/-- The clip block's index the product reads at result (r, 0, c') and feature d is (r, c', d). -/
theorem clip_index (r : Fin 8) (c' : Fin 2048) (d : Fin 100) :
    dot_S8x1x100_S8x2048x100_S8x1x2048_2_2_1_1_0_0.rhsIdx (ix3 r (0 : Fin 1) c')
        ((contrEquiv1 dot_S8x1x100_S8x2048x100_S8x1x2048_2_2_1_1_0_0 100 rfl rfl).symm d)
      = ix3 r c' d := by
  funext a
  apply Fin.ext
  match a with
  | ⟨0, _⟩ => simp [DotDims.rhsIdx, dot_S8x1x100_S8x2048x100_S8x1x2048_2_2_1_1_0_0]; rfl
  | ⟨1, _⟩ => simp [DotDims.rhsIdx, dot_S8x1x100_S8x2048x100_S8x1x2048_2_2_1_1_0_0]; rfl
  | ⟨2, _⟩ =>
    exact (DotDims.rhsIdx_val_of_single _ rfl _ _).trans
      (contrEquiv1_symm_val dot_S8x1x100_S8x2048x100_S8x1x2048_2_2_1_1_0_0 100 rfl rfl d)

/-- The product of the all-ones row with the clips, into a zero accumulator, is each clip's sum over its features. -/
theorem ones_contract (y : FVec Ideal S8x2048x100 .bf16) (r : Fin 8) (c' : Fin 2048) :
    matmul dot_S8x1x100_S8x2048x100_S8x1x2048_2_2_1_1_0_0 none
        (broadcast S8x1x100 (Scalar.ofBits (F := Ideal) .bf16 0x3F80#16)) y
        (constant (F := Ideal) S8x1x2048 .f32 0x00000000#32) (ix3 r (0 : Fin 1) c')
      = ∑ d : Fin 100, y (ix3 r c' d) := by
  refine (Ideal.matmul_constant_zero_apply _ none _ y _).trans ?_
  rw [← Equiv.sum_comp (contrEquiv1 dot_S8x1x100_S8x2048x100_S8x1x2048_2_2_1_1_0_0 100 rfl rfl).symm]
  refine Finset.sum_congr rfl fun d _ => ?_
  rw [clip_index]
  show Ideal.ofBits .bf16 0x3F80#16 * y (ix3 r c' d) = _
  rw [one_bf16, one_mul]

/-- The sum along the clip axis of an [8, 2048] block, at row r. -/
theorem block_total (v : FVec Ideal S8x2048 .f32) (r : Fin 8) :
    multiReduction .add [1] S8 v 0x00000000#32 reduces_S8x2048_S8 (.inl rfl) rfl (ix1 r)
      = ∑ c' : Fin 2048, v (ix2 r c') := by
  refine (Ideal.multiReduction_add_single v 0x00000000#32 reduces_S8x2048_S8 (.inl rfl) rfl (ix1 r)).trans ?_
  refine Finset.sum_congr rfl fun c' _ => congrArg v ?_
  funext a
  apply Fin.ext
  match a with
  | ⟨0, _⟩ => rfl
  | ⟨1, _⟩ => rfl

/-- The zero block the first visit of a row block stores. -/
theorem pay1_apply (j : S8x1.Idx) : k0_pay1 (F := Ideal) j = Ideal.ofBits .f32 0x00000000#32 := rfl

/-- THE BODY AT A ROW: the running total plus the block's 2048 hinge terms. -/
theorem pay2_apply (x0 : Vec Ideal S8x100 .f32) (x1 : Vec Ideal S8x2048x100 .f32) (xo : Vec Ideal S8x1 .f32)
    (r : Fin 8) (z : Fin 1) :
    k0_pay2 x0 x1 xo (ix2 r z)
      = xo (ix2 r z) + ∑ c' : Fin 2048, MarginLoss.hingeOf (fun d => x0 (ix2 r d)) (fun d => x1 (ix3 r c' d)) := by
  unfold k0_pay2
  refine (addf_apply _ _ _).trans ?_
  refine congrArg₂ (· + ·) ?_ ?_
  · exact congrFun (shapeCast_self xo _) _
  · refine (totals_as_column _ r z).trans ?_
    refine (block_total _ r).trans ?_
    refine Finset.sum_congr rfl fun c' _ => ?_
    unfold MarginLoss.hingeOf
    refine congrArg (fun s => max (Ideal.ofBits .f32 0x3DCCCCCD#32 - Ideal.div s (Ideal.ofBits .f32 0x42C80000#32))
      (Ideal.ofBits .f32 0x00000000#32)) ?_
    refine (drop_unit_row _ r c').trans ?_
    refine (ones_contract _ r c').trans ?_
    refine Finset.sum_congr rfl fun d _ => ?_
    have e : broadcastTo S8x2048x100 (shapeCast S8x1x100 x0 shapeCasts_S8x100_S8x1x100)
        broadcasts_S8x1x100_S8x2048x100 (ix3 r c' d) = x0 (ix2 r d) :=
      (repeat_clip _ r c' d).trans (rows_as_unit_clip x0 r 0 d)
    show (broadcastTo S8x2048x100 (shapeCast S8x1x100 x0 shapeCasts_S8x100_S8x1x100)
        broadcasts_S8x1x100_S8x2048x100 (ix3 r c' d) - x1 (ix3 r c' d))
      * (broadcastTo S8x2048x100 (shapeCast S8x1x100 x0 shapeCasts_S8x100_S8x1x100)
        broadcasts_S8x1x100_S8x2048x100 (ix3 r c' d) - x1 (ix3 r c' d)) = _
    rw [e]

end Cert.KernelIdeal.Margin

end
-- ==== Proof.RowTotals.lean ====
/-
  From blocks to the array: the [256, 1] column the kernel's region leaves.

  The grid has 32 × 2 points; point `t` is row block `t / 2`, clip block `t % 2`. Its positives' block is rows
  `8 (t / 2) + r` of the positives, its negatives' block is clips `2048 (t % 2) + c'` of those rows. The column's block
  does not move between the two visits of a row block and is written back after the second (the odd points). After
  the second visit row `r` of the block holds `(0 + the first half's hinge terms) + the second half's`, which is
  `rowAcc` of the hinge terms of array row `8 (t / 2) + r`; the written-back blocks tile the column.
-/
import proofs.«107131_j6786048328134_2_alg».proof.Proof.CaseValues
import proofs.«107131_j6786048328134_2_alg».proof.Proof.KernelPayload

set_option maxRecDepth 16384

noncomputable section

open scoped BigOperators

namespace Cert.KernelIdeal.Margin

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Two visits of a row block, over variables: the zero column, plus the first visit's hinge terms, plus the second's. -/
theorem two_visits (x0 x0' : Vec Ideal S8x100 .f32) (x1 x1' : Vec Ideal S8x2048x100 .f32) (r : Fin 8) (z : Fin 1) :
    k0_pay2 x0' x1' (k0_pay2 x0 x1 (k0_pay1 (F := Ideal))) (ix2 r z)
      = (Ideal.ofBits .f32 0x00000000#32
          + ∑ c' : Fin 2048, MarginLoss.hingeOf (fun d => x0 (ix2 r d)) (fun d => x1 (ix3 r c' d)))
        + ∑ c' : Fin 2048, MarginLoss.hingeOf (fun d => x0' (ix2 r d)) (fun d => x1' (ix3 r c' d)) := by
  rw [pay2_apply, pay2_apply]
  rfl

/-- The printed index maps over the 64 points: row block `t / 2`, clip block `t % 2`, nothing else moves. -/
theorem index_maps : ∀ t : Fin cfg0.N,
    win0_0.index t (0 : Fin 2) = t.val / 2 ∧ win0_0.index t (1 : Fin 2) = 0
    ∧ win0_1.index t (0 : Fin 3) = t.val / 2 ∧ win0_1.index t (1 : Fin 3) = t.val % 2 ∧ win0_1.index t (2 : Fin 3) = 0
    ∧ win0_2.index t (0 : Fin 2) = t.val / 2 ∧ win0_2.index t (1 : Fin 2) = 0 :=
  (by decide +kernel : ∀ t : Fin grid0.N, _)

/-- Row `r`, feature `d` of the positives' block at point `t` is row `8 (t / 2) + r` of the positives. -/
theorem pos_block (c : Dev nD) (t : Fin cfg0.N) (r : Fin 8) (d : Fin 100) (b : Fin 256)
    (hb : b.val = 8 * (t.val / 2) + r.val) :
    iblk m c 0 t (ix2 r d) = m ((c : Thread nD τ).loc main_arg0) (ix2 b d) := by
  obtain ⟨e0, e1, -⟩ := index_maps t
  unfold iblk
  rw [View.read_apply]
  show V m c main_arg0 _ = _
  rw [V_main_arg0]
  refine congrArg _ (funext fun a => Fin.ext ?_)
  match a with
  | ⟨0, _⟩ => show win0_0.index t (0 : Fin 2) * 8 + 1 * r.val = b.val; rw [e0, hb]; omega
  | ⟨1, _⟩ => show win0_0.index t (1 : Fin 2) * 100 + 1 * d.val = d.val; rw [e1]; omega

/-- Row `r`, clip `c'`, feature `d` of the negatives' block at point `t` is clip `2048 (t % 2) + c'` of row
    `8 (t / 2) + r`. -/
theorem neg_block (c : Dev nD) (t : Fin cfg0.N) (r : Fin 8) (c' : Fin 2048) (d : Fin 100) (b : Fin 256)
    (hb : b.val = 8 * (t.val / 2) + r.val) (cc : Fin 4096) (hcc : cc.val = 2048 * (t.val % 2) + c'.val) :
    iblk m c 1 t (ix3 r c' d) = m ((c : Thread nD τ).loc main_arg1) (ix3 b cc d) := by
  obtain ⟨-, -, e2, e3, e4, -⟩ := index_maps t
  unfold iblk
  rw [View.read_apply]
  show V m c main_arg1 _ = _
  rw [V_main_arg1]
  refine congrArg _ (funext fun a => Fin.ext ?_)
  match a with
  | ⟨0, _⟩ => show win0_1.index t (0 : Fin 3) * 8 + 1 * r.val = b.val; rw [e2, hb]; omega
  | ⟨1, _⟩ => show win0_1.index t (1 : Fin 3) * 2048 + 1 * c'.val = cc.val; rw [e3, hcc]; omega
  | ⟨2, _⟩ => show win0_1.index t (2 : Fin 3) * 100 + 1 * d.val = d.val; rw [e4]; omega

/-- The hinge terms of a block are those of the arrays at the block's rows and clips. -/
theorem block_hinge (c : Dev nD) (t : Fin cfg0.N) (r : Fin 8) (c' : Fin 2048) (b : Fin 256)
    (hb : b.val = 8 * (t.val / 2) + r.val) (cc : Fin 4096) (hcc : cc.val = 2048 * (t.val % 2) + c'.val) :
    MarginLoss.hingeOf (fun d => iblk m c 0 t (ix2 r d)) (fun d => iblk m c 1 t (ix3 r c' d))
      = MarginLoss.hinge (m ((c : Thread nD τ).loc main_arg0)) (m ((c : Thread nD τ).loc main_arg1)) b cc := by
  unfold MarginLoss.hinge
  exact congrArg₂ MarginLoss.hingeOf (funext fun d => pos_block m c t r d b hb)
    (funext fun d => neg_block m c t r c' d b hb cc hcc)

/-- After the second visit of a row block (an odd point), row `r` of the staging buffer holds the running total of
    array row `8 (t / 2) + r`: the point before was the first visit. -/
theorem second_visit_total (c : Dev nD) (t : Fin cfg0.N) (ht : t.val % 2 = 1) (r : Fin 8) (z : Fin 1) (b : Fin 256)
    (hb : b.val = 8 * (t.val / 2) + r.val) :
    outsAt0 m c t.val t.isLt (ix2 r z)
      = MarginLoss.rowAcc (MarginLoss.hinge (m ((c : Thread nD τ).loc main_arg0)) (m ((c : Thread nD τ).loc main_arg1)) b) := by
  have hN : t.val < 64 := lt_of_lt_of_eq t.isLt (show cfg0.N = 64 from N_0)
  have hB : ¬t.val % 2 = 0 := by omega
  have hlt : t.val - 1 < cfg0.N := Nat.lt_of_le_of_lt (Nat.sub_le _ _) t.isLt
  have hA : (⟨t.val - 1, hlt⟩ : Fin cfg0.N).val % 2 = 0 := by show (t.val - 1) % 2 = 0; omega
  have e1 : outsAt0 m c t.val t.isLt
      = k0_pay2 (iblk m c 0 t) (iblk m c 1 t) (outsAt0 m c (t.val - 1) hlt) :=
    (outsAt0_B m c t hB).trans (later_visit c (grid0.coords t) (ms0_0 t) (hs0_0 t) (ms0_1 t) (hs0_1 t) (ms0_2 t) (hs0_2 t)
      (fun h => hB ((hcond0_0 t).mp h)) (iblk m c 0 t) (iblk m c 1 t) (outsAt0 m c (t.val - 1) hlt))
  have e0 : outsAt0 m c (t.val - 1) hlt
      = k0_pay2 (iblk m c 0 ⟨t.val - 1, hlt⟩) (iblk m c 1 ⟨t.val - 1, hlt⟩) (k0_pay1 (F := Ideal)) :=
    (outsAt0_A m c ⟨t.val - 1, hlt⟩ hA).trans (first_visit c (grid0.coords ⟨t.val - 1, hlt⟩) (ms0_0 ⟨t.val - 1, hlt⟩)
      (hs0_0 ⟨t.val - 1, hlt⟩) (ms0_1 ⟨t.val - 1, hlt⟩) (hs0_1 ⟨t.val - 1, hlt⟩) (ms0_2 ⟨t.val - 1, hlt⟩) (hs0_2 ⟨t.val - 1, hlt⟩)
      ((hcond0_0 ⟨t.val - 1, hlt⟩).mpr hA) (iblk m c 0 ⟨t.val - 1, hlt⟩) (iblk m c 1 ⟨t.val - 1, hlt⟩))
  rw [e1, e0]
  refine (two_visits (iblk m c 0 ⟨t.val - 1, hlt⟩) (iblk m c 0 t) (iblk m c 1 ⟨t.val - 1, hlt⟩) (iblk m c 1 t) r z).trans ?_
  unfold MarginLoss.rowAcc
  refine congrArg₂ (· + ·) (congrArg (Ideal.ofBits .f32 0x00000000#32 + ·) (Finset.sum_congr rfl fun c' _ => ?_))
    (Finset.sum_congr rfl fun c' _ => ?_)
  · exact block_hinge m c ⟨t.val - 1, hlt⟩ r c' b (by show b.val = 8 * ((t.val - 1) / 2) + r.val; omega)
      (MarginLoss.lo c') (by show c'.val = 2048 * ((t.val - 1) % 2) + c'.val; omega)
  · exact block_hinge m c t r c' b hb (MarginLoss.hi c') (by show 2048 + c'.val = 2048 * (t.val % 2) + c'.val; omega)

/-- WHAT AN ODD POINT WRITES BACK is its block of the column of row totals (`MarginLoss.rowTotals`) of the argument arrays. -/
theorem written_back (c : Dev nD) (t : Fin cfg0.N) (hf : (cfg0.win 2).flush t = true) :
    (dats m 0 c).flushed 2 t = ((cfg0.win 2).blk t).view.read (Elt Ideal)
      (MarginLoss.rowTotals (m ((c : Thread nD τ).loc main_arg0)) (m ((c : Thread nD τ).loc main_arg1))) := by
  have ht : t.val % 2 = 1 := (flush0_2 t).mp hf
  obtain ⟨-, -, -, -, -, e5, -⟩ := index_maps t
  show (cfg0.win 2).cut (grid0.coords t) ((dats m 0 c).after 2 t) = _
  rw [after0_2]
  funext y
  obtain ⟨r, z, rfl⟩ : ∃ (r : Fin 8) (z : Fin 1), y = ix2 r z := ⟨y 0, y 1, eq_ix2 y⟩
  rw [View.read_apply]
  have hb : ((((cfg0.win 2).blk t).view.emb (ix2 r z)) 0).val = 8 * (t.val / 2) + r.val := by
    show win0_2.index t (0 : Fin 2) * 8 + 1 * r.val = _
    rw [e5]; omega
  exact second_visit_total m c t ht r z _ hb

/-- An index of the column is in point `t`'s block iff each coordinate is in the block's range on its axis. -/
theorem mem_block (t : Fin cfg0.N) (i : S256x1.Idx) :
    i ∈ ((cfg0.win 2).blk t).view.set
      ↔ ∀ a : Fin 2, win0_2.index t a * S8x1.size a ≤ (i a).val ∧ (i a).val < win0_2.index t a * S8x1.size a + S8x1.size a := by
  show i ∈ ((View.whole main_v4).slice (win0_2.rect t)).set ↔ _
  rw [View.set_slice_whole, Rect.mem_set_unit]
  exact Iff.rfl

/-- Row `b` of the column is in the block written back at the second visit of row block `b / 8`. -/
theorem covered (i : S256x1.Idx) :
    ∃ t : Fin cfg0.N, (cfg0.win 2).flush t = true ∧ i ∈ ((cfg0.win 2).blk t).view.set := by
  have h0 : (i 0).val < 256 := (i 0).isLt
  have h1 : (i 1).val < 1 := (i 1).isLt
  have hN : cfg0.N = 64 := N_0
  have hlt : 2 * ((i 0).val / 8) + 1 < cfg0.N := by rw [hN]; omega
  obtain ⟨-, -, -, -, -, e5, e6⟩ := index_maps ⟨2 * ((i 0).val / 8) + 1, hlt⟩
  have e5' : win0_2.index ⟨2 * ((i 0).val / 8) + 1, hlt⟩ (0 : Fin 2) = (i 0).val / 8 := by
    rw [e5]; show (2 * ((i 0).val / 8) + 1) / 2 = _; omega
  refine ⟨⟨2 * ((i 0).val / 8) + 1, hlt⟩, (flush0_2 _).mpr (by show (2 * ((i 0).val / 8) + 1) % 2 = 1; omega), ?_⟩
  rw [mem_block]
  intro a
  match a with
  | ⟨0, _⟩ =>
    show win0_2.index ⟨2 * ((i 0).val / 8) + 1, hlt⟩ (0 : Fin 2) * 8 ≤ (i 0).val
      ∧ (i 0).val < win0_2.index ⟨2 * ((i 0).val / 8) + 1, hlt⟩ (0 : Fin 2) * 8 + 8
    rw [e5']; omega
  | ⟨1, _⟩ =>
    show win0_2.index ⟨2 * ((i 0).val / 8) + 1, hlt⟩ (1 : Fin 2) * 1 ≤ (i 1).val
      ∧ (i 1).val < win0_2.index ⟨2 * ((i 0).val / 8) + 1, hlt⟩ (1 : Fin 2) * 1 + 1
    rw [e6]; omega

/-- THE COLUMN after the region: the row totals of the argument arrays. -/
theorem final_column (c : Dev nD) :
    (dats m 0 c).arrAt 2 cfg0.N
      = MarginLoss.rowTotals (m ((c : Thread nD τ).loc main_arg0)) (m ((c : Thread nD τ).loc main_arg1)) :=
  (dats m 0 c).arrAt_eq_of_cover 2 _ (written_back m c) covered

end Cert.KernelIdeal.Margin

end
-- ==== Proof.ReferenceHinge.lean ====
/-
  The reference's stages read at an index, over the extended reals.

  At row `b` and clip `c` the reference's clamped stage is `max (0.1 - (0 + ∑ d, (pos b d - neg b c d)²) / 100) 0`
  — the positives repeated along the clip axis, the difference squared, summed over the 100 features from zero —
  which is `MarginLoss.hinge pos neg b c` (`0 + x = x`). Its sum over every row and clip, from zero, is therefore the
  sum, from zero, of the [256, 1] column of row totals the kernel's region leaves (`MarginLoss.sum_rowTotals`).
-/
import proofs.«107131_j6786048328134_2_alg».proof.Proof.Gen.ReferenceIdeal.Read
import proofs.«107131_j6786048328134_2_alg».proof.Proof.MarginSpec

noncomputable section

open scoped BigOperators

namespace Cert.ReferenceIdeal.Margin

open Cert.ReferenceIdeal Cert.ReferenceIdeal.Read Idealize.ShloMosaic Idealize.ShloMosaic.ValueIdx

/-- The clamped stage at (b, c) is the hinge term of row `b` against clip `c`. -/
theorem clamped_apply (x0 : S256x100.Idx → EReal) (x1 : S256x4096x100.Idx → EReal) (b : Fin 256) (cc : Fin 4096) :
    val_main_v13 (F := Ideal) x0 x1 (ix2 b cc) = MarginLoss.hinge x0 x1 b cc := by
  have i0 : ∀ d : Fin 100, idx_main_v4 (idx_main_v5 (idx_main_v8 (ix2 b cc) d)) = ix2 b d := fun d =>
    funext fun a => Fin.ext (by match a with | ⟨0, _⟩ => rfl | ⟨1, _⟩ => rfl)
  have i1 : ∀ d : Fin 100, idx_main_v8 (ix2 b cc) d = ix3 b cc d := fun d =>
    funext fun a => Fin.ext (by match a with | ⟨0, _⟩ => rfl | ⟨1, _⟩ => rfl | ⟨2, _⟩ => rfl)
  rw [val_main_v13_apply, val_main_v12_apply, val_main_call0_v0_apply, val_main_call0_cst_apply, val_main_v11_apply,
    val_main_cst_3_apply, val_main_v10_apply, val_main_v9_apply, val_main_cst_2_apply, val_main_v8_apply,
    val_main_cst_1_apply]
  unfold MarginLoss.hinge MarginLoss.hingeOf
  simp only [Ideal.maximumf_def, Ideal.subf_def, Ideal.hostDivf_def, Ideal.ofBits_def]
  refine congrArg (fun s => max (Ideal.ofBits .f32 0x3DCCCCCD#32 - Ideal.div s (Ideal.ofBits .f32 0x42C80000#32))
    (Ideal.ofBits .f32 0x00000000#32)) ?_
  rw [Ideal.ofBits_zero_f32, zero_add]
  refine Finset.sum_congr rfl fun d _ => ?_
  rw [val_main_v7_apply, val_main_v6_apply, val_main_v5_apply, val_main_v4_apply, i0, i1]
  simp only [Ideal.mulf_def, Ideal.subf_def]

/-- The reference's total of the clamped stage is the total, from zero, of the column of row totals, whatever
    witnesses of the two shape facts the two programs carry. -/
theorem total_apply (x0 : S256x100.Idx → EReal) (x1 : S256x4096x100.Idx → EReal)
    (h1 : (⟨2, ![256, 1]⟩ : Shape).ReducesTo [0, 1] ⟨0, ![]⟩) (hu : 0 < (⟨0, ![]⟩ : Shape).numel) :
    Host.reduceAdd (F := Ideal) (MarginLoss.rowTotals x0 x1) (constant (F := Ideal) ⟨0, ![]⟩ .f32 0x00000000#32) h1 hu
      = val_main_v14 (F := Ideal) x0 x1 := by
  funext i
  rw [val_main_v14_apply]
  simp only [Host.reduceAdd, Ideal.hostReduceAdd_def]
  rw [Ideal.hostReduceAdd_total h1 (fun b => b.elim0) (MarginLoss.rowTotals x0 x1) _ i, MarginLoss.sum_rowTotals]
  refine congrArg₂ (· + ·) rfl (Finset.sum_congr rfl fun j _ => ?_)
  rw [eq_ix2 j]
  exact (clamped_apply x0 x1 (j 0) (j 1)).symm

end Cert.ReferenceIdeal.Margin

end
-- ==== Proof.KernelRun.lean ====
/-
  The kernel's whole run, read: its result is the reference's final stage of the argument arrays.

  Before the region the host computes the mean squared distance of the positives to the third argument — the same
  six operations the reference starts with. After the region it sums the [256, 1] column of row totals from zero,
  divides by 2²⁰, multiplies by 1 and adds the first term. The reference ends with the same four operations applied
  to the sum, from zero, of its clamped stage over [256, 4096]; the two sums are equal
  (`Cert.ReferenceIdeal.Margin.total_apply`), so the shared operations are applied to equal values and are never
  opened.
-/
import proofs.«107131_j6786048328134_2_alg».proof.Proof.RowTotals
import proofs.«107131_j6786048328134_2_alg».proof.Proof.ReferenceHinge
import Idealize.ShloMosaic.Lib.StableHlo.Run
import Idealize.ShloMosaic.Lib.Tactic

set_option maxRecDepth 16384

noncomputable section

namespace Cert.KernelIdeal.Margin

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The first term as the region finds it: the reference's mean-squared-distance stage of the first and third
    arguments. -/
theorem first_term (c : Dev nD) :
    V0 m c (Proc.devRef .tc main_v3)
      = Cert.ReferenceIdeal.Read.val_main_v3 (F := Ideal) (m ((c : Thread nD τ).loc main_arg0))
          (m ((c : Thread nD τ).loc main_arg2)) := by
  show StableHlo.after hostOps0 (fun b => m (c, b)) (Proc.devRef .tc main_v3) = _
  after_results
  rfl

/-- THE RESULT: what the host operations after the region leave in the result buffer is the reference's final stage. -/
theorem result (c : Dev nD) :
    Pipeline.afterTail₀ cfgs (dats m) 0 (V0 m) [hostOps1] c main_v8
      = Cert.ReferenceIdeal.Read.val_main_v17 (F := Ideal) (m ((c : Thread nD τ).loc main_arg0))
          (m ((c : Thread nD τ).loc main_arg1)) (m ((c : Thread nD τ).loc main_arg2)) := by
  have e3 : Pipeline.withArrays (cfgs 0).spec c (V0 m c) (fun w => (dats m 0 c).arrAt w (cfgs 0).N) (Proc.devRef .tc main_v3)
      = Cert.ReferenceIdeal.Read.val_main_v3 (F := Ideal) (m ((c : Thread nD τ).loc main_arg0))
          (m ((c : Thread nD τ).loc main_arg2)) :=
    (Pipeline.withArrays_of_ne _ c (V0 m c) _ main_v3 (by exact (by decide : ∀ w, Pipeline.arrRef spec0 w ≠ main_v3))).trans
      (first_term m c)
  have e4 : Pipeline.withArrays (cfgs 0).spec c (V0 m c) (fun w => (dats m 0 c).arrAt w (cfgs 0).N) (Proc.devRef .tc main_v4)
      = MarginLoss.rowTotals (m ((c : Thread nD τ).loc main_arg0)) (m ((c : Thread nD τ).loc main_arg1)) :=
    (Pipeline.withArrays_arr spec0 launch0.win.arr_inj c _ _ 2).trans (final_column m c)
  unfold Pipeline.afterTail₀
  show StableHlo.after hostOps1 _ (Proc.devRef .tc main_v8) = _
  after_results
  rw [e3, e4, Cert.ReferenceIdeal.Margin.total_apply]
  rfl

/-- THE RUN: every weakly fair execution ends with the result buffer at the reference's final stage of the argument
    arrays, and the arguments unchanged. -/
theorem run : θ_run defs (onTc (τ := τ) (main (F := Ideal))) ⟨m, fun _ => 0, ρ⟩ fun r => ∀ c : Dev nD,
      r.2.mem ((c.tc : Thread nD τ).loc main_v8)
        = Cert.ReferenceIdeal.Read.val_main_v17 (F := Ideal) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Margin

end
-- ==== Proof.lean ====
/-
  A margin loss: the mean squared distance of 256 positive rows of 100 features to a third array, plus the mean,
  over 256 rows × 4096 negative clips, of the hinge `max (0.1 - mean_d (pos[b, d] - neg[b, c, d])²) 0`.

  The kernel computes the hinge terms on a 32 × 2 grid — 8 rows by 2048 clips per point — taking the sum over the 100
  features as a product with an all-ones row after narrowing the squares to bf16, and keeps a running total per row
  in an [8, 1] block that is zeroed at the first clip block and written back after the second; the host then sums
  the [256, 1] column, divides by 2²⁰ and adds the first term. The reference sums each clip's squares over the
  features, clamps, and sums over every row and clip at once.

  Over the extended reals a change of float format is the identity, the product with the all-ones row is the plain
  sum (`1 * x = x`), and the two arrangements of the sum of hinge terms agree because addition is commutative and
  associative with `0` neutral; every float literal is the same word on both sides. Nothing distributes over a sum or
  cancels, so the finiteness of the inputs is not used.

  The modules: `MarginSpec` (the hinge term, the running total, the regrouping of the sum), `KernelPayload` (the
  body's arithmetic at a row), `CaseValues` (what the first and the second visit of a row block leave), `RowTotals`
  (the [256, 1] column after the region), `ReferenceHinge` (the reference's stages at an index and the equality of
  the two totals), `KernelRun` (the kernel's whole run, its result stated as the reference's final stage).
-/
import proofs.«107131_j6786048328134_2_alg».proof.Defs
import proofs.«107131_j6786048328134_2_alg».proof.Proof.Gen.Kernel
import proofs.«107131_j6786048328134_2_alg».proof.Proof.Gen.Kernel.Skeleton
import proofs.«107131_j6786048328134_2_alg».proof.Proof.Gen.Kernel.Launch
import proofs.«107131_j6786048328134_2_alg».proof.Proof.Gen.Kernel.Points
import proofs.«107131_j6786048328134_2_alg».proof.Proof.Gen.Kernel.Frame
import proofs.«107131_j6786048328134_2_alg».proof.Proof.Gen.KernelIdeal
import proofs.«107131_j6786048328134_2_alg».proof.Proof.Gen.KernelIdeal.Skeleton
import proofs.«107131_j6786048328134_2_alg».proof.Proof.Gen.KernelIdeal.Launch
import proofs.«107131_j6786048328134_2_alg».proof.Proof.Gen.KernelIdeal.Points
import proofs.«107131_j6786048328134_2_alg».proof.Proof.Gen.KernelIdeal.Frame
import proofs.«107131_j6786048328134_2_alg».proof.Proof.Gen.ReferenceIdeal
import proofs.«107131_j6786048328134_2_alg».proof.Proof.Gen.Pre_finite_inputs
import proofs.«107131_j6786048328134_2_alg».proof.Proof.Gen.ReferenceIdeal.Run
import proofs.«107131_j6786048328134_2_alg».proof.Proof.Gen.ReferenceIdeal.Read
import proofs.«107131_j6786048328134_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at the reference's final stage of the argument arrays: the kernel by
    `Cert.KernelIdeal.Margin.run`, the reference by its own run, from arguments that agree. -/
theorem algebraic : Cert.algebraic_KernelIdeal_ReferenceIdeal := by
  intro m ρ m' ρ' _ hagree
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Margin.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
